-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S128x128 : Shape := ⟨2, ![128, 128]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x16384 .f32) (main_arg1 : FVec F S128x128 .f32) (main_arg2 : FVec F S128x128 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4096x16384 : Shape := ⟨2, ![4096, 16384]⟩
abbrev S128x128 : Shape := ⟨2, ![128, 128]⟩
abbrev S4096x128x128 : Shape := ⟨3, ![4096, 128, 128]⟩
abbrev S64x128x128 : Shape := ⟨3, ![64, 128, 128]⟩
abbrev S8192x128 : Shape := ⟨2, ![8192, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S128x128, .f32⟩
  | .hbm, ⟨2, _⟩ => ⟨S128x128, .f32⟩
  | .hbm, ⟨3, _⟩ => ⟨S4096x128x128, .f32⟩
  | .hbm, ⟨4, _⟩ => ⟨S4096x128x128, .f32⟩
  | .hbm, ⟨5, _⟩ => ⟨S4096x16384, .f32⟩
  | .local _ .vmem, ⟨0, _⟩ => ⟨S64x128x128, .f32⟩
  | .local _ .vmem, ⟨1, _⟩ => ⟨S64x128x128, .f32⟩
  | .local _ .vmem, ⟨2, _⟩ => ⟨S128x128, .f32⟩
  | .local _ .vmem, ⟨3, _⟩ => ⟨S128x128, .f32⟩
  | .local _ .vmem, ⟨4, _⟩ => ⟨S64x128x128, .f32⟩
  | .local _ .vmem, ⟨5, _⟩ => ⟨S64x128x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x16384_S4096x128x128 : S4096x16384.ShapeCasts S4096x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  bitsLt_bf16_f32 : FTy.bits .bf16 < FTy.bits .f32
  shapeCasts_S64x128x128_S8192x128 : S64x128x128.ShapeCasts S8192x128
  inb_S128x128_S128x128_0_0 : ∀ a, (![0, 0] : Fin 2 → Nat) a + S128x128.size a ≤ S128x128.size a
  h_S128x128 : 0 < S128x128.numel
  shapeCasts_S8192x128_S64x128x128 : S8192x128.ShapeCasts S64x128x128
  transposes_S64x128x128_p0_2_1_S64x128x128 : S64x128x128.Transposes [0, 2, 1] S64x128x128
  shapeCasts_S4096x128x128_S4096x16384 : S4096x128x128.ShapeCasts S4096x16384
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S4096x128x128.size a
  hwx0_0 : ∀ i : grid0.Coords, EltTy.bits .f32 = 32 ∨ (Rect.block (s := S4096x128x128) S64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S4096x128x128.size a
  hwx0_3 : ∀ i : grid0.Coords, EltTy.bits .f32 = 32 ∨ (Rect.block (s := S4096x128x128) S64x128x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S128x128 : Shape := ⟨2, ![128, 128]⟩
abbrev S4096x128x128 : Shape := ⟨3, ![4096, 128, 128]⟩
abbrev S128x4096x128 : Shape := ⟨3, ![128, 4096, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S128x128, .f32⟩
  | .hbm, ⟨2, _⟩ => ⟨S128x128, .f32⟩
  | .hbm, ⟨3, _⟩ => ⟨S4096x128x128, .f32⟩
  | .hbm, ⟨4, _⟩ => ⟨S128x4096x128, .f32⟩
  | .hbm, ⟨5, _⟩ => ⟨S4096x128x128, .f32⟩
  | .hbm, ⟨6, _⟩ => ⟨S4096x16384, .f32⟩
  | .hbm, ⟨7, _⟩ => ⟨S4096x128x128, .f32⟩
  | .hbm, ⟨8, _⟩ => ⟨S128x4096x128, .f32⟩
  | .hbm, ⟨9, _⟩ => ⟨S4096x128x128, .f32⟩
  | .hbm, ⟨10, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S4096x16384_S4096x128x128 : S4096x16384.ShapeCasts S4096x128x128
  transposes_S128x4096x128_S4096x128x128_1_0_2 : S128x4096x128.Transposes [1, 0, 2] S4096x128x128
  shapeCasts_S4096x128x128_S4096x16384 : S4096x128x128.ShapeCasts S4096x16384
  dot_S128x128_S4096x128x128_S128x4096x128_0_2_1_01_n_n_wf : DotDims.WF S128x128 S4096x128x128 S128x4096x128 [0] [2] [1] [0, 1] [] []

variable [Facts₀]

def dot_S128x128_S4096x128x128_S128x4096x128_0_2_1_01_n_n : DotDims S128x128 S4096x128x128 S128x4096x128 where
  lhsContracting := [0]
  rhsContracting := [2]
  lhsNonContracting := [1]
  rhsNonContracting := [0, 1]
  lhsBatch := []
  rhsBatch := []
  wf := dot_S128x128_S4096x128x128_S128x4096x128_0_2_1_01_n_n_wf

class Facts : Prop extends Facts₀ where

variable [Facts]
-- ==== Proof.Chain.lean ====
/-
  The chained factorised linear map, as a function of arrays of extended reals.

  An input of batch extent `B` is read as a stack of 128 × 128 matrices `X[b]`. One stage contracts the trailing axis of
  such a stack with a 128 × 128 matrix `W` and puts the new axis in front of the other matrix axis:
  `stage A W (b, p, q) = ∑ k, A (b, q, k) · W (k, p)`. The whole map is two stages, `chain X W₀ W₁ = stage (stage X W₀) W₁`;
  written out, `chain X W₀ W₁ (b, p, q) = ∑ k, (∑ j, X (b, k, j) · W₀ (j, q)) · W₁ (k, p)`, the entry `(p, q)` of `W₁ᵀ · X[b] · W₀`.

  A stage reads, at batch position `b`, only the matrix `A[b]`: so a stage of a block of consecutive batch rows of a
  larger stack is the same block of the stage of the larger stack (`stage_restrict`, `chain_restrict`).
-/
import Idealize.ShloMosaic.PureOps.Ideal
import Idealize.ShloMosaic.Lib.ValueIdx

noncomputable section

namespace Cert.Faclin

open Idealize.ShloMosaic Idealize.ShloMosaic.ValueIdx

/-- A stack of `B` matrices of 128 × 128 extended reals. -/
abbrev Stack (B : Nat) : Type := (⟨3, ![B, 128, 128]⟩ : Shape).Idx → EReal
/-- A 128 × 128 matrix of extended reals. -/
abbrev Mat : Type := (⟨2, ![128, 128]⟩ : Shape).Idx → EReal

/-- One stage: contract the trailing axis of `A` with the leading axis of `W`; the new axis comes before the remaining
    matrix axis. -/
def stage {B : Nat} (A : Stack B) (W : Mat) : Stack B :=
  fun i => ∑ k : Fin 128, A (ix3 (n0 := B) (n1 := 128) (n2 := 128) (i 0) (i 2) k) * W (ix2 (n0 := 128) (n1 := 128) k (i 1))

theorem stage_apply {B : Nat} (A : Stack B) (W : Mat) (b : Fin B) (p q : Fin 128) :
    stage A W (ix3 b p q) = ∑ k : Fin 128, A (ix3 b q k) * W (ix2 k p) := rfl

/-- The two stages in turn. -/
def chain {B : Nat} (X : Stack B) (W0 W1 : Mat) : Stack B := stage (stage X W0) W1

/-- A stage of a selection of batch rows is the selection of the stage. -/
theorem stage_restrict {B B' : Nat} (f : Fin B → Fin B') (x : Stack B) (X : Stack B') (W : Mat)
    (h : ∀ b p q, x (ix3 b p q) = X (ix3 (f b) p q)) (b : Fin B) (p q : Fin 128) :
    stage x W (ix3 b p q) = stage X W (ix3 (f b) p q) := by
  rw [stage_apply, stage_apply]
  exact Finset.sum_congr rfl fun k _ => by rw [h b q k]

/-- The same for the two stages in turn. -/
theorem chain_restrict {B B' : Nat} (f : Fin B → Fin B') (x : Stack B) (X : Stack B') (W0 W1 : Mat)
    (h : ∀ b p q, x (ix3 b p q) = X (ix3 (f b) p q)) (b : Fin B) (p q : Fin 128) :
    chain x W0 W1 (ix3 b p q) = chain X W0 W1 (ix3 (f b) p q) :=
  stage_restrict f _ _ W1 (stage_restrict f x X W0 h) b p q

/-- A 4096 × 16384 array read as 4096 matrices of 128 × 128: entry `(b, r·128 + s)` is entry `(r, s)` of matrix `b`. -/
theorem casts_in : (⟨2, ![4096, 16384]⟩ : Shape).ShapeCasts ⟨3, ![4096, 128, 128]⟩ := by decide
/-- And back. -/
theorem casts_out : (⟨3, ![4096, 128, 128]⟩ : Shape).ShapeCasts ⟨2, ![4096, 16384]⟩ := by decide

/-- The whole map on a 4096 × 16384 input: read it as a stack, apply the two stages, flatten the stack again. -/
def result (x : (⟨2, ![4096, 16384]⟩ : Shape).Idx → EReal) (W0 W1 : Mat) : (⟨2, ![4096, 16384]⟩ : Shape).Idx → EReal :=
  shapeCast ⟨2, ![4096, 16384]⟩ (chain (B := 4096) (shapeCast ⟨3, ![4096, 128, 128]⟩ x casts_in) W0 W1) casts_out

end Cert.Faclin

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.BodyValue.lean ====
/-
  What the kernel body computes from its three loaded blocks, at the ideal instance.

  The body takes a block `x` of 64 batch rows (a stack of 64 matrices of 128 × 128) and the two weight matrices. It
  flattens the stack to 8192 × 128 (row `b·128 + r` of the flat matrix is row `r` of matrix `b`), multiplies by the
  first weight into a zero accumulator, restores the stack, and exchanges the two matrix axes; then it does the same
  with the second weight. The roundings to the 16-bit format before each product are the identity on extended reals.
  One such pass is one `Faclin.stage` (`pass_apply`), so the stored value is `Faclin.chain` of the three blocks
  (`pay_eq`).
-/
import proofs.«125998_j86990267613961_1_alg».proof.Proof.Gen.KernelIdeal.Skeleton
import proofs.«125998_j86990267613961_1_alg».proof.Proof.Chain
import proofs.«125998_j86990267613961_1_alg».proof.Proof.LibDotSum
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-- Row `b·128 + r` of the flat 8192 × 128 matrix. -/
abbrev flatRow (b : Fin 64) (r : Fin 128) : Fin 8192 := ⟨b.val * 128 + r.val, by have := b.isLt; have := r.isLt; omega⟩

/-- The flattened stack at `(b·128 + r, k)` is the stack at `(b, r, k)`. -/
theorem flatten_apply {α : Type} (A : S64x128x128.Idx → α) (b : Fin 64) (r k : Fin 128) :
    shapeCast S8192x128 A shapeCasts_S64x128x128_S8192x128 (ix2 (flatRow b r) k) = A (ix3 b r k) :=
  shapeCast_apply A shapeCasts_S64x128x128_S8192x128 (ix2 (flatRow b r) k) (ix3 b r k)
    (by rewrite [Shape.rowMajor_val_three, Shape.rowMajor_val_two]; rfl)

/-- The restored stack at `(b, r, k)` is the flat matrix at `(b·128 + r, k)`. -/
theorem unflatten_apply {α : Type} (M : S8192x128.Idx → α) (b : Fin 64) (r k : Fin 128) :
    shapeCast S64x128x128 M shapeCasts_S8192x128_S64x128x128 (ix3 b r k) = M (ix2 (flatRow b r) k) :=
  shapeCast_apply M shapeCasts_S8192x128_S64x128x128 (ix3 b r k) (ix2 (flatRow b r) k)
    (by rewrite [Shape.rowMajor_val_two, Shape.rowMajor_val_three]; rfl)

/-- Exchanging the two matrix axes. -/
theorem swap_apply {α : Type} (A : S64x128x128.Idx → α) (b : Fin 64) (p q : Fin 128) :
    transpose S64x128x128 [0, 2, 1] A transposes_S64x128x128_p0_2_1_S64x128x128 (ix3 b p q) = A (ix3 b q p) :=
  transpose_apply [0, 2, 1] A transposes_S64x128x128_p0_2_1_S64x128x128 (ix3 b p q) (ix3 b q p) (fun a => match a with
    | ⟨0, _⟩ => rfl
    | ⟨1, _⟩ => rfl
    | ⟨2, _⟩ => rfl)

/-- The product of the flat matrix with a weight, into zero, at `(r, q)`: the sum over the shared axis. -/
theorem product_apply (M : FVec Ideal S8192x128 .bf16) (W : FVec Ideal S128x128 .bf16) (r : Fin 8192) (q : Fin 128) :
    matmul dot_S8192x128_S128x128_S8192x128_1_0_0_1_n_n none M W (constant (F := Ideal) S8192x128 .f32 0x00000000#32) (ix2 r q)
      = ∑ k : Fin 128, M (ix2 r k) * W (ix2 k q) :=
  (Ideal.matmul_constant_zero_apply dot_S8192x128_S128x128_S8192x128_1_0_0_1_n_n none M W (ix2 r q)).trans
    (Cert.LibDotSum.sum_dot dot_S8192x128_S128x128_S8192x128_1_0_0_1_n_n rfl rfl
      (fun _ _ => rfl) (fun j k => dot_S8192x128_S128x128_S8192x128_1_0_0_1_n_n.lhsIdx_val_of_single rfl j k)
      (fun j k => dot_S8192x128_S128x128_S8192x128_1_0_0_1_n_n.rhsIdx_val_of_single rfl j k) (fun _ _ => rfl) M W r q)

/-- One pass of the body — flatten, multiply into zero, restore, exchange the matrix axes — is one stage. -/
theorem pass_apply (A : FVec Ideal S64x128x128 .bf16) (W : FVec Ideal S128x128 .bf16) (b : Fin 64) (p q : Fin 128) :
    transpose S64x128x128 [0, 2, 1]
      (shapeCast S64x128x128
        (matmul dot_S8192x128_S128x128_S8192x128_1_0_0_1_n_n none (shapeCast S8192x128 A shapeCasts_S64x128x128_S8192x128) W
          (constant (F := Ideal) S8192x128 .f32 0x00000000#32))
        shapeCasts_S8192x128_S64x128x128)
      transposes_S64x128x128_p0_2_1_S64x128x128 (ix3 b p q)
    = Cert.Faclin.stage (B := 64) A W (ix3 b p q) := by
  refine (swap_apply _ b p q).trans ?_
  refine (unflatten_apply _ b q p).trans ?_
  refine (product_apply _ W (flatRow b q) p).trans ?_
  rw [Cert.Faclin.stage_apply]
  exact Finset.sum_congr rfl fun k _ => congrArg (· * W (ix2 k p)) (flatten_apply A b q k)

/-- The stored value is the two stages in turn of the three loaded blocks. -/
theorem pay_eq (x0 : Vec Ideal S64x128x128 .f32) (x1 x2 : Vec Ideal S128x128 .f32) :
    k0_pay1 (F := Ideal) x0 x1 x2 = Cert.Faclin.chain (B := 64) x0 x1 x2 := by
  funext i
  obtain ⟨b, p, q, rfl⟩ : ∃ (b : Fin 64) (p q : Fin 128), i = ix3 b p q := ⟨i 0, i 1, i 2, eq_ix3 i⟩
  unfold k0_pay1
  refine (pass_apply _ _ b p q).trans ?_
  unfold Cert.Faclin.chain
  rw [Cert.Faclin.stage_apply, Cert.Faclin.stage_apply]
  refine Finset.sum_congr rfl fun k _ => congrArg (· * x2 (ix2 k p)) ?_
  refine (pass_apply _ _ b q k).trans ?_
  rw [Cert.Faclin.stage_apply, Cert.Faclin.stage_apply]
  refine Finset.sum_congr rfl fun j _ => ?_
  show (shapeCast S64x128x128 x0 shapeCasts_S64x128x128_S64x128x128) (ix3 b k j) * x1 (ix2 j q) = _
  rw [shapeCast_self]

end Cert.KernelIdeal.Hand

end
-- ==== Proof.KernelValue.lean ====
/-
  The array the idealized kernel program ends with, as one function of its three arguments.

  The program reads the input as a stack of 4096 matrices, runs the body on 64 blocks of 64 consecutive batch rows
  (grid point `t` takes rows `64·t … 64·t + 63` and the two whole weight matrices, and writes rows `64·t … 64·t + 63` of
  the result stack), and flattens the result stack. The body's stored value is `Faclin.chain` of its blocks, and a
  chain of a block of batch rows is the same block of the chain of the whole stack: so what point `t` writes back is
  block `t` of `Faclin.chain` of the whole stack and the weights (`flushed_eq`). Every batch row `r` lies in the block
  of point `r / 64` (`cover`), so the result stack is that chain (`final`), and the program's result is
  `Faclin.result` of the arguments (`run`).
-/
import proofs.«125998_j86990267613961_1_alg».proof.Proof.Gen.KernelIdeal.Frame
import proofs.«125998_j86990267613961_1_alg».proof.Proof.BodyValue
import Idealize.ShloMosaic.Lib.Pipeline.Value
import Idealize.ShloMosaic.Lib.StableHlo.Run
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index of each window at point `t`: the stacks move along the batch axis with the point, the weights
    stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Batch row `b` of the block of point `t` is batch row `64·t + b` of the stack. -/
def batchRow (t : Fin cfg0.N) (b : Fin 64) : Fin 4096 :=
  ⟨t.val * 64 + b.val, by have hN : grid0.N = 64 := N_0; have ht : t.val < grid0.N := t.isLt; have := b.isLt; omega⟩

/-- The input block at point `t` is batch rows `64·t …` of the input stack. -/
theorem x_block (c : Dev nD) (t : Fin cfg0.N) (b : Fin 64) (p q : Fin 128) :
    iblk m c 0 t (ix3 b p q) = V m c main_v0 (ix3 (batchRow t b) p q) := by
  obtain ⟨e0, e1, e2, -⟩ := idx_facts t
  show V m c main_v0 (((cfg0.win 0).blk t).view.emb (ix3 b p q)) = V m c main_v0 (ix3 (batchRow t b) p q)
  refine congrArg (V m c main_v0) (funext fun a => Fin.ext ?_)
  match a with
  | ⟨0, _⟩ => show win0_0.index t (0 : Fin 3) * 64 + 1 * b.val = t.val * 64 + b.val; rw [e0]; omega
  | ⟨1, _⟩ => show win0_0.index t (1 : Fin 3) * 128 + 1 * p.val = p.val; rw [e1]; omega
  | ⟨2, _⟩ => show win0_0.index t (2 : Fin 3) * 128 + 1 * q.val = q.val; rw [e2]; omega

/-- The first weight's block at any point is the whole first weight. -/
theorem w0_block (c : Dev nD) (t : Fin cfg0.N) : (iblk m c 1 t : Vec Ideal S128x128 .f32) = V m c main_arg1 := by
  obtain ⟨-, -, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The second weight's block at any point is the whole second weight. -/
theorem w1_block (c : Dev nD) (t : Fin cfg0.N) : (iblk m c 2 t : Vec Ideal S128x128 .f32) = V m c main_arg2 := by
  obtain ⟨-, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- What point `t` writes back is block `t` of the chain of the whole input stack and the weights. -/
theorem flushed_eq (c : Dev nD) (t : Fin cfg0.N) :
    (dats m 0 c).flushed 3 t = ((cfg0.win 3).blk t).view.read (Elt Ideal)
      (Cert.Faclin.chain (B := 4096) (V m c main_v0) (V m c main_arg1) (V m c main_arg2)) := by
  show (cfg0.win 3).cut (grid0.coords t) ((dats m 0 c).after 3 t) = _
  rw [after0_3]
  unfold out0_3
  rw [View.canon_unit_zero zeros3]
  simp only [View.ld_unit_zero (S := S64x128x128) zeros3, View.ld_unit_zero (S := S128x128) zeros2]
  rw [pay_eq, w0_block, w1_block]
  obtain ⟨-, -, -, -, -, -, -, e0, e1, e2⟩ := idx_facts t
  funext j
  obtain ⟨b, p, q, rfl⟩ : ∃ (b : Fin 64) (p q : Fin 128), j = ix3 b p q := ⟨j 0, j 1, j 2, eq_ix3 j⟩
  show Cert.Faclin.chain (B := 64) (iblk m c 0 t) (V m c main_arg1) (V m c main_arg2) (ix3 b p q)
    = Cert.Faclin.chain (B := 4096) (V m c main_v0) (V m c main_arg1) (V m c main_arg2) (((cfg0.win 3).blk t).view.emb (ix3 b p q))
  have hemb : ((cfg0.win 3).blk t).view.emb (ix3 b p q) = ix3 (batchRow t b) p q := funext fun a => Fin.ext (by
    match a with
    | ⟨0, _⟩ => show win0_3.index t (0 : Fin 3) * 64 + 1 * b.val = t.val * 64 + b.val; rw [e0]; omega
    | ⟨1, _⟩ => show win0_3.index t (1 : Fin 3) * 128 + 1 * p.val = p.val; rw [e1]; omega
    | ⟨2, _⟩ => show win0_3.index t (2 : Fin 3) * 128 + 1 * q.val = q.val; rw [e2]; omega)
  rw [hemb]
  exact Cert.Faclin.chain_restrict (batchRow t) _ _ _ _ (x_block m c t) b p q

/-- An index of the result stack is in point `t`'s block iff each coordinate is in the block's range on its axis. -/
theorem mem_blk (t : Fin cfg0.N) (i : S4096x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v1).slice (win0_3.rect t)).set ↔ _
  rw [View.set_slice_whole, Rect.mem_set_unit]
  exact Iff.rfl

/-- Batch row `r` is written back by point `r / 64`. -/
theorem cover (i : S4096x128x128.Idx) : ∃ t : Fin cfg0.N, (cfg0.win 3).flush t = true ∧ i ∈ ((cfg0.win 3).blk t).view.set := by
  have hN : grid0.N = 64 := N_0
  have h0 : (i 0).val < 4096 := (i 0).isLt
  have h1 : (i 1).val < 128 := (i 1).isLt
  have h2 : (i 2).val < 128 := (i 2).isLt
  obtain ⟨t, ht⟩ : ∃ t : Fin cfg0.N, t.val = (i 0).val / 64 := ⟨⟨(i 0).val / 64, by show (i 0).val / 64 < grid0.N; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; rw [e0]; omega
  | ⟨1, _⟩ => show win0_3.index t (1 : Fin 3) * 128 ≤ (i 1).val ∧ (i 1).val < win0_3.index t (1 : Fin 3) * 128 + 128; rw [e1]; omega
  | ⟨2, _⟩ => show win0_3.index t (2 : Fin 3) * 128 ≤ (i 2).val ∧ (i 2).val < win0_3.index t (2 : Fin 3) * 128 + 128; rw [e2]; omega

/-- The result stack after the run is the chain of the input stack and the weights as the region finds them. -/
theorem final (c : Dev nD) : (dats m 0 c).arrAt 3 cfg0.N
    = Cert.Faclin.chain (B := 4096) (V m c main_v0) (V m c main_arg1) (V m c main_arg2) :=
  (dats m 0 c).arrAt_eq_of_cover 3 _ (fun t _ => flushed_eq m c t) cover

/-- The input stack as the region finds it is the first argument read as a stack. -/
theorem stack_in (c : Dev nD) : (V m c main_v0 : S4096x128x128.Idx → EReal)
    = shapeCast S4096x128x128 (m ((c : Thread nD τ).loc main_arg0)) shapeCasts_S4096x16384_S4096x128x128 := by
  show StableHlo.after hostOps0 (fun b => m (c, b)) (Proc.devRef .tc main_v0) = _
  after_results
  rfl

/-- The program's result is the result stack after the run, flattened. -/
theorem tail_eq (c : Dev nD) :
    Pipeline.afterTail₀ cfgs (dats m) 0 (V0 m) [hostOps1] c main_v2
      = shapeCast S4096x16384 ((dats m 0 c).arrAt 3 cfg0.N) shapeCasts_S4096x128x128_S4096x16384 := by
  unfold Pipeline.afterTail₀
  show StableHlo.after hostOps1 _ (Proc.devRef .tc main_v2) = _
  after_results
  exact congrArg (fun A => shapeCast S4096x16384 A shapeCasts_S4096x128x128_S4096x16384)
    (Pipeline.withArrays_arr spec0 launch0.win.arr_inj c _ _ 3)

/-- The program's result as a function of its three arguments. -/
theorem result_eq (c : Dev nD) :
    Pipeline.afterTail₀ cfgs (dats m) 0 (V0 m) [hostOps1] c main_v2
      = Cert.Faclin.result (m ((c : Thread nD τ).loc main_arg0)) (m ((c : Thread nD τ).loc main_arg1)) (m ((c : Thread nD τ).loc main_arg2)) := by
  rw [tail_eq, final, stack_in, V_main_arg1, V_main_arg2]
  rfl

/-- The run, read: the result at `Faclin.result` of the arguments, the arguments unchanged. -/
theorem run : θ_run defs (onTc (τ := τ) (main (F := Ideal))) ⟨m, fun _ => 0, ρ⟩ fun r => ∀ c : Dev nD,
      r.2.mem ((c.tc : Thread nD τ).loc main_v2) = Cert.Faclin.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.RefValue.lean ====
/-
  What the reference computes, at the ideal instance, stage by stage.

  The reference reads the input as a stack of 4096 matrices of 128 × 128 (`val_main_v0`), and twice does the following:
  a product `W (f, g) · A (b, r, f)` summed over `f`, with the axes of the result in the order `(g, b, r)`, then a
  transposition to `(b, g, r)`. That is one `Faclin.stage` up to the order of the two factors of each product
  (`first_stage`, `second_stage`). Between the two the stack is flattened to 4096 × 16384 and restored, which changes
  nothing (`restored`). So the stack before the last flattening is `Faclin.chain` of the input stack and the two weights
  (`stack_eq`).
-/
import proofs.«125998_j86990267613961_1_alg».proof.Proof.Gen.ReferenceIdeal.Read
import proofs.«125998_j86990267613961_1_alg».proof.Proof.Chain

noncomputable section

namespace Cert.ReferenceIdeal.Hand

open Idealize.ShloMosaic Idealize.ShloMosaic.ValueIdx Cert.ReferenceIdeal Cert.ReferenceIdeal.Gen Cert.ReferenceIdeal.Read

/-- The first product and transposition are a stage of the input stack with the first weight. -/
theorem first_stage (x0 : (⟨S4096x16384, .f32⟩ : BufTy).Contents (Elt Ideal)) (x1 : (⟨S128x128, .f32⟩ : BufTy).Contents (Elt Ideal)) :
    val_main_v2 (F := Ideal) x0 x1 = Cert.Faclin.stage (B := 4096) (val_main_v0 (F := Ideal) x0) x1 := by
  funext i
  obtain ⟨b, p, q, rfl⟩ : ∃ (b : Fin 4096) (p q : Fin 128), i = ix3 b p q := ⟨i 0, i 1, i 2, eq_ix3 i⟩
  rw [val_main_v2_apply, val_main_v1_apply, Cert.Faclin.stage_apply]
  refine Finset.sum_congr rfl fun k _ => ?_
  have el : lidx_main_v1 (idx_main_v2 (ix3 b p q)) k = ix2 k p := funext fun a => by
    match a with
    | ⟨0, _⟩ => rfl
    | ⟨1, _⟩ => rfl
  have er : ridx_main_v1 (idx_main_v2 (ix3 b p q)) k = ix3 b q k := funext fun a => by
    match a with
    | ⟨0, _⟩ => rfl
    | ⟨1, _⟩ => rfl
    | ⟨2, _⟩ => rfl
  rw [el, er]
  exact mul_comm _ _

/-- Flattening the stack to 4096 × 16384 and restoring it changes nothing. -/
theorem restored (x0 : (⟨S4096x16384, .f32⟩ : BufTy).Contents (Elt Ideal)) (x1 : (⟨S128x128, .f32⟩ : BufTy).Contents (Elt Ideal)) :
    val_main_v4 (F := Ideal) x0 x1 = val_main_v2 (F := Ideal) x0 x1 := by
  unfold val_main_v4 val_main_v3
  exact shapeCast_shapeCast _ _ _

/-- The second product and transposition are a stage of the restored stack with the second weight. -/
theorem second_stage (x0 : (⟨S4096x16384, .f32⟩ : BufTy).Contents (Elt Ideal)) (x1 x2 : (⟨S128x128, .f32⟩ : BufTy).Contents (Elt Ideal)) :
    val_main_v6 (F := Ideal) x0 x1 x2 = Cert.Faclin.stage (B := 4096) (val_main_v4 (F := Ideal) x0 x1) x2 := by
  funext i
  obtain ⟨b, p, q, rfl⟩ : ∃ (b : Fin 4096) (p q : Fin 128), i = ix3 b p q := ⟨i 0, i 1, i 2, eq_ix3 i⟩
  rw [val_main_v6_apply, val_main_v5_apply, Cert.Faclin.stage_apply]
  refine Finset.sum_congr rfl fun k _ => ?_
  have el : lidx_main_v5 (idx_main_v6 (ix3 b p q)) k = ix2 k p := funext fun a => by
    match a with
    | ⟨0, _⟩ => rfl
    | ⟨1, _⟩ => rfl
  have er : ridx_main_v5 (idx_main_v6 (ix3 b p q)) k = ix3 b q k := funext fun a => by
    match a with
    | ⟨0, _⟩ => rfl
    | ⟨1, _⟩ => rfl
    | ⟨2, _⟩ => rfl
  rw [el, er]
  exact mul_comm _ _

/-- The stack the reference flattens last is the two stages in turn of the input stack and the weights. -/
theorem stack_eq (x0 : (⟨S4096x16384, .f32⟩ : BufTy).Contents (Elt Ideal)) (x1 x2 : (⟨S128x128, .f32⟩ : BufTy).Contents (Elt Ideal)) :
    val_main_v6 (F := Ideal) x0 x1 x2 = Cert.Faclin.chain (B := 4096) (val_main_v0 (F := Ideal) x0) x1 x2 := by
  rw [second_stage, restored, first_stage]
  rfl

end Cert.ReferenceIdeal.Hand

end
-- ==== Proof.lean ====
/-
  The chained factorised linear map: a kernel that works block by block against two einsum stages.

  Both programs read the 4096 × 16384 input as a stack of 4096 matrices `X[b]` of 128 × 128 and end by flattening a
  result stack the same way. In between, the reference twice contracts the trailing matrix axis with a weight and
  moves the new axis in front of the other matrix axis; the kernel, on blocks of 64 batch rows, twice multiplies the
  flattened block by a weight and exchanges the two matrix axes. At the ideal instance the roundings to the 16-bit
  format are the identity, and both result stacks are
      Y (b, p, q) = ∑ k, (∑ j, X (b, k, j) · W₀ (j, q)) · W₁ (k, p),
  the same nested sum on both sides: the only law used between them is commutativity of the product of two extended
  reals, so the precondition is never opened. (`Proof/Chain.lean`: the function; `Proof/BodyValue.lean`: the kernel
  body's stored value; `Proof/KernelValue.lean`: the blocks assembled and the kernel program's run;
  `Proof/RefValue.lean`: the reference, stage by stage.)

  The three frames: the two kernel programs' are the generated frame proofs, the reference's is its generated run
  with the result dropped. The idealization rewrote nothing, so `preserves` is `True`.
-/
import proofs.«125998_j86990267613961_1_alg».proof.Defs
import proofs.«125998_j86990267613961_1_alg».proof.Proof.Gen.Kernel
import proofs.«125998_j86990267613961_1_alg».proof.Proof.Gen.Kernel.Skeleton
import proofs.«125998_j86990267613961_1_alg».proof.Proof.Gen.Kernel.Launch
import proofs.«125998_j86990267613961_1_alg».proof.Proof.Gen.Kernel.Points
import proofs.«125998_j86990267613961_1_alg».proof.Proof.Gen.Kernel.Frame
import proofs.«125998_j86990267613961_1_alg».proof.Proof.Gen.KernelIdeal
import proofs.«125998_j86990267613961_1_alg».proof.Proof.Gen.KernelIdeal.Skeleton
import proofs.«125998_j86990267613961_1_alg».proof.Proof.Gen.KernelIdeal.Launch
import proofs.«125998_j86990267613961_1_alg».proof.Proof.Gen.KernelIdeal.Points
import proofs.«125998_j86990267613961_1_alg».proof.Proof.Gen.KernelIdeal.Frame
import proofs.«125998_j86990267613961_1_alg».proof.Proof.Gen.ReferenceIdeal
import proofs.«125998_j86990267613961_1_alg».proof.Proof.Gen.Pre_finite_inputs
import proofs.«125998_j86990267613961_1_alg».proof.Proof.Gen.ReferenceIdeal.Run
import proofs.«125998_j86990267613961_1_alg».proof.Proof.Gen.ReferenceIdeal.Read
import proofs.«125998_j86990267613961_1_alg».proof.Proof.KernelValue
import proofs.«125998_j86990267613961_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result, as its run states it, is `Faclin.result` of its arguments: the last flattening of the
    stack that `RefValue.stack_eq` identifies. -/
theorem reference_result (x0 : (⟨Cert.ReferenceIdeal.S4096x16384, .f32⟩ : BufTy).Contents (Elt Ideal))
    (x1 x2 : (⟨Cert.ReferenceIdeal.S128x128, .f32⟩ : BufTy).Contents (Elt Ideal)) :
    Cert.ReferenceIdeal.Read.val_main_v7 (F := Ideal) x0 x1 x2 = Cert.Faclin.result x0 x1 x2 := by
  unfold Cert.ReferenceIdeal.Read.val_main_v7
  rw [Cert.ReferenceIdeal.Hand.stack_eq]
  rfl

/-- Both idealized programs, from memories that agree on the arguments, end with `Faclin.result` of the arguments. -/
theorem algebraic : Cert.algebraic_KernelIdeal_ReferenceIdeal := by
  intro m ρ m' ρ' _ hagree
  refine ⟨fun c => Cert.Faclin.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, reference_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
